-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S4096x256 : Shape := ⟨2, ![4096, 256]⟩
abbrev S512x4096 : Shape := ⟨2, ![512, 4096]⟩
abbrev S512x256 : Shape := ⟨2, ![512, 256]⟩
abbrev S1x4096 : Shape := ⟨2, ![1, 4096]⟩
abbrev S256x4096 : Shape := ⟨2, ![256, 4096]⟩
abbrev S256x256 : Shape := ⟨2, ![256, 256]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x256, .bf16⟩
  | .hbm, ⟨4, _⟩ => ⟨S1x4096, .f32⟩
  | .hbm, ⟨5, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S512x256, .bf16⟩
  | .local _ .vmem, ⟨3, _⟩ => ⟨S512x256, .bf16⟩
  | .local _ .vmem, ⟨4, _⟩ => ⟨S256x4096, .f32⟩
  | .local _ .vmem, ⟨5, _⟩ => ⟨S256x4096, .f32⟩
  | .local _ .vmem, ⟨6, _⟩ => ⟨S4096x256, .bf16⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x4096_S512x256_0_0 : ∀ a, (![0, 0] : Fin 2 → Nat) a + S512x256.size a ≤ S512x4096.size a
  h_S512x256 : 0 < S512x256.numel
  inb_S512x4096_S512x256_0_256 : ∀ a, (![0, 256] : Fin 2 → Nat) a + S512x256.size a ≤ S512x4096.size a
  inb_S512x4096_S512x256_0_512 : ∀ a, (![0, 512] : Fin 2 → Nat) a + S512x256.size a ≤ S512x4096.size a
  inb_S512x4096_S512x256_0_768 : ∀ a, (![0, 768] : Fin 2 → Nat) a + S512x256.size a ≤ S512x4096.size a
  inb_S512x4096_S512x256_0_1024 : ∀ a, (![0, 1024] : Fin 2 → Nat) a + S512x256.size a ≤ S512x4096.size a
  inb_S512x4096_S512x256_0_1280 : ∀ a, (![0, 1280] : Fin 2 → Nat) a + S512x256.size a ≤ S512x4096.size a
  inb_S512x4096_S512x256_0_1536 : ∀ a, (![0, 1536] : Fin 2 → Nat) a + S512x256.size a ≤ S512x4096.size a
  inb_S512x4096_S512x256_0_1792 : ∀ a, (![0, 1792] : Fin 2 → Nat) a + S512x256.size a ≤ S512x4096.size a
  inb_S512x4096_S512x256_0_2048 : ∀ a, (![0, 2048] : Fin 2 → Nat) a + S512x256.size a ≤ S512x4096.size a
  inb_S512x4096_S512x256_0_2304 : ∀ a, (![0, 2304] : Fin 2 → Nat) a + S512x256.size a ≤ S512x4096.size a
  inb_S512x4096_S512x256_0_2560 : ∀ a, (![0, 2560] : Fin 2 → Nat) a + S512x256.size a ≤ S512x4096.size a
  inb_S512x4096_S512x256_0_2816 : ∀ a, (![0, 2816] : Fin 2 → Nat) a + S512x256.size a ≤ S512x4096.size a
  inb_S512x4096_S512x256_0_3072 : ∀ a, (![0, 3072] : Fin 2 → Nat) a + S512x256.size a ≤ S512x4096.size a
  inb_S512x4096_S512x256_0_3328 : ∀ a, (![0, 3328] : Fin 2 → Nat) a + S512x256.size a ≤ S512x4096.size a
  inb_S512x4096_S512x256_0_3584 : ∀ a, (![0, 3584] : Fin 2 → Nat) a + S512x256.size a ≤ S512x4096.size a
  inb_S512x4096_S512x256_0_3840 : ∀ a, (![0, 3840] : Fin 2 → Nat) a + S512x256.size a ≤ S512x4096.size a
  bitsLt_bf16_f32 : FTy.bits .bf16 < FTy.bits .f32
  inb_S512x256_S512x256_0_0 : ∀ a, (![0, 0] : Fin 2 → Nat) a + S512x256.size a ≤ S512x256.size a
  packedbf16_S512x256_S512x256_0_0 : (Rect.unit (s := S512x256) ![0, 0] S512x256.size inb_S512x256_S512x256_0_0).PackedRows (EltTy.packing .bf16)
  shapeCasts_S4096_S1x4096 : S4096.ShapeCasts S1x4096
  inb_S256x4096_S256x256_0_0 : ∀ a, (![0, 0] : Fin 2 → Nat) a + S256x256.size a ≤ S256x4096.size a
  h_S256x256 : 0 < S256x256.numel
  inb_S256x4096_S256x256_0_256 : ∀ a, (![0, 256] : Fin 2 → Nat) a + S256x256.size a ≤ S256x4096.size a
  inb_S256x4096_S256x256_0_512 : ∀ a, (![0, 512] : Fin 2 → Nat) a + S256x256.size a ≤ S256x4096.size a
  inb_S256x4096_S256x256_0_768 : ∀ a, (![0, 768] : Fin 2 → Nat) a + S256x256.size a ≤ S256x4096.size a
  inb_S256x4096_S256x256_0_1024 : ∀ a, (![0, 1024] : Fin 2 → Nat) a + S256x256.size a ≤ S256x4096.size a
  inb_S256x4096_S256x256_0_1280 : ∀ a, (![0, 1280] : Fin 2 → Nat) a + S256x256.size a ≤ S256x4096.size a
  inb_S256x4096_S256x256_0_1536 : ∀ a, (![0, 1536] : Fin 2 → Nat) a + S256x256.size a ≤ S256x4096.size a
  inb_S256x4096_S256x256_0_1792 : ∀ a, (![0, 1792] : Fin 2 → Nat) a + S256x256.size a ≤ S256x4096.size a
  inb_S256x4096_S256x256_0_2048 : ∀ a, (![0, 2048] : Fin 2 → Nat) a + S256x256.size a ≤ S256x4096.size a
  inb_S256x4096_S256x256_0_2304 : ∀ a, (![0, 2304] : Fin 2 → Nat) a + S256x256.size a ≤ S256x4096.size a
  inb_S256x4096_S256x256_0_2560 : ∀ a, (![0, 2560] : Fin 2 → Nat) a + S256x256.size a ≤ S256x4096.size a
  inb_S256x4096_S256x256_0_2816 : ∀ a, (![0, 2816] : Fin 2 → Nat) a + S256x256.size a ≤ S256x4096.size a
  inb_S256x4096_S256x256_0_3072 : ∀ a, (![0, 3072] : Fin 2 → Nat) a + S256x256.size a ≤ S256x4096.size a
  inb_S256x4096_S256x256_0_3328 : ∀ a, (![0, 3328] : Fin 2 → Nat) a + S256x256.size a ≤ S256x4096.size a
  inb_S256x4096_S256x256_0_3584 : ∀ a, (![0, 3584] : Fin 2 → Nat) a + S256x256.size a ≤ S256x4096.size a
  inb_S256x4096_S256x256_0_3840 : ∀ a, (![0, 3840] : Fin 2 → Nat) a + S256x256.size a ≤ S256x4096.size a
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)

variable [Facts₀]

def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S0 : Shape := ⟨1, ![0]⟩
abbrev S4096x16x256 : Shape := ⟨3, ![4096, 16, 256]⟩
abbrev S_ : Shape := ⟨0, ![]⟩
abbrev S4096x256 : Shape := ⟨2, ![4096, 256]⟩
abbrev S16x256x4096 : Shape := ⟨3, ![16, 256, 4096]⟩
abbrev S256x4096 : Shape := ⟨2, ![256, 4096]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S0, .i32⟩
  | .hbm, ⟨4, _⟩ => ⟨S4096x4096, .f32⟩
  | .hbm, ⟨5, _⟩ => ⟨S4096x16x256, .f32⟩
  | .hbm, ⟨6, _⟩ => ⟨S_, .f32⟩
  | .hbm, ⟨7, _⟩ => ⟨S4096x256, .f32⟩
  | .hbm, ⟨8, _⟩ => ⟨S16x256x4096, .f32⟩
  | .hbm, ⟨9, _⟩ => ⟨S_, .f32⟩
  | .hbm, ⟨10, _⟩ => ⟨S256x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  hz_S0 : S0.numel = 0
  transposes_S4096x4096_S4096x4096_1_0 : S4096x4096.Transposes [1, 0] S4096x4096
  shapeCasts_S4096x4096_S4096x16x256 : S4096x4096.ShapeCasts S4096x16x256
  reducesTo_S4096x16x256_S4096x256_d1 : S4096x16x256.ReducesTo [1] S4096x256
  h_S_ : 0 < S_.numel
  shapeCasts_S4096x4096_S16x256x4096 : S4096x4096.ShapeCasts S16x256x4096
  reducesTo_S16x256x4096_S256x4096_d0 : S16x256x4096.ReducesTo [0] S256x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x256_S256x4096_S4096x4096_1_0_0_1_n_n_wf : DotDims.WF S4096x256 S256x4096 S4096x4096 [1] [0] [0] [1] [] []
  scatter_S4096x4096_S0_S4096x4096_01_n_n_0_wf : ScatterDims.WF S4096x4096 S0 S4096x4096 [0, 1] [] [] 0

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def scatter_S4096x4096_S0_S4096x4096_01_n_n_0 : ScatterDims S4096x4096 S0 S4096x4096 where
  updateWindowDims := [0, 1]
  insertedWindowDims := []
  scatterDimsToOperandDims := []
  indexVectorDim := 0
  wf := scatter_S4096x4096_S0_S4096x4096_01_n_n_0_wf

class Facts : Prop extends Facts₀ where

variable [Facts]
-- ==== Proof.TileSpec.lean ====
/-
  The function both programs compute, over the extended reals.

  A row of 4096 entries is cut into sixteen tiles of 256 columns; the TILE SUM of a [4096, 4096] array at
  (p, r) adds the r-th entries of the sixteen tiles of row p:  T(a)[p, r] = Σ_{b < 16} a[p, 256·b + r].
  The result is a [4096, 4096] array:  out[p, q] = Σ_{k < 256} T(x)[p, k] · T(w)[q, k] + bias[q].

  Addition on the extended reals is associative and commutative with unit 0 (also at the infinities), which is
  all that joins the two programs: one adds the sixteen tiles left to right starting from the first, the other
  starts from zero. No distributivity is used, hence no finiteness.
-/
import Idealize.ShloMosaic.PureOps.Ideal
import Idealize.ShloMosaic.Lib.ValueIdx

noncomputable section

namespace Cert.TileSpec

open Idealize.ShloMosaic Idealize.ShloMosaic.ValueIdx

/-- Column `256·b + r` of a 4096-wide row: entry `r` of the `b`-th of its sixteen tiles. -/
def tcol (b : Fin 16) (r : Fin 256) : Fin 4096 := ⟨256 * b.val + r.val, by omega⟩

theorem tcol_val (b : Fin 16) (r : Fin 256) : (tcol b r).val = 256 * b.val + r.val := rfl

/-- The tile sum at row `p`, tile column `r`:  Σ_b a[p, 256·b + r]. -/
def tileSumAt (a : (⟨2, ![4096, 4096]⟩ : Shape).Idx → EReal) (p : Fin 4096) (r : Fin 256) : EReal :=
  ∑ b : Fin 16, a (ix2 p (tcol b r))

/-- The tile sums as a [4096, 256] array. -/
def tileSums (a : (⟨2, ![4096, 4096]⟩ : Shape).Idx → EReal) : (⟨2, ![4096, 256]⟩ : Shape).Idx → EReal :=
  fun j => tileSumAt a (j 0) (j 1)

theorem tileSums_ix2 (a : (⟨2, ![4096, 4096]⟩ : Shape).Idx → EReal) (p : Fin 4096) (r : Fin 256) :
    tileSums a (ix2 p r) = tileSumAt a p r := rfl

/-- The result at (p, q): the tile sums of row `p` of `x` against those of row `q` of `w`, plus `bias[q]`. -/
def outAt (x w : (⟨2, ![4096, 4096]⟩ : Shape).Idx → EReal) (bias : (⟨1, ![4096]⟩ : Shape).Idx → EReal)
    (p q : Fin 4096) : EReal :=
  (∑ k : Fin 256, tileSumAt x p k * tileSumAt w q k) + bias (ix1 q)

/-- The result as a [4096, 4096] array. -/
def out (x w : (⟨2, ![4096, 4096]⟩ : Shape).Idx → EReal) (bias : (⟨1, ![4096]⟩ : Shape).Idx → EReal) :
    (⟨2, ![4096, 4096]⟩ : Shape).Idx → EReal :=
  fun i => outAt x w bias (i 0) (i 1)

theorem out_ix2 (x w : (⟨2, ![4096, 4096]⟩ : Shape).Idx → EReal) (bias : (⟨1, ![4096]⟩ : Shape).Idx → EReal)
    (p q : Fin 4096) : out x w bias (ix2 p q) = outAt x w bias p q := rfl

/-- Sixteen terms added left to right, starting from the first, are their sum. -/
theorem sum16 (f : Fin 16 → EReal) :
    f 0 + f 1 + f 2 + f 3 + f 4 + f 5 + f 6 + f 7 + f 8 + f 9 + f 10 + f 11 + f 12 + f 13 + f 14 + f 15
      = ∑ b : Fin 16, f b := by
  simp only [Fin.sum_univ_succ, Fin.sum_univ_zero, add_zero, add_assoc]
  rfl

end Cert.TileSpec

end
-- ==== Proof.LibScatterWhole.lean ====
/-
  A scatter whose every update index lands on itself overwrites the whole operand.

  The scatter visits the update indices one after another; the visit of update index j replaces
  the element of the running result at the index j lands on. When every j lands on j itself and the
  replacement keeps the update's element alone, after the visits of a list l of positions the
  running result holds the update's element at every index whose position is in l and the
  operand's element elsewhere. The full schedule visits every position, so nothing of the operand
  is left.
-/
import Idealize.ShloMosaic.PureOps.ShapeOps

namespace Idealize.ShloMosaic

variable {s si : Shape} {w : Nat} {α : Type}

/-- The running result after the visits of the positions in `l`, read at `i`, when every update
    index lands on itself and the replacement keeps the update's element: the update's element at
    `i` if the row-major position of `i` is in `l`, and the starting array's element otherwise.
    Induction on `l` with the starting array general: the visit of the head `n` changes the
    starting array at the one index whose position is `n`. -/
theorem Host.scatter_visits_of_self (d : ScatterDims s si s) (idx : IVec si w) (upd : s.Idx → α)
    (h : ∀ j, d.resultIdx? j idx = some j) (i : s.Idx) (l : List (Fin s.numel)) (x : s.Idx → α) :
    l.foldl (fun r n =>
        match d.resultIdx? (s.rowMajor.symm n) idx with
        | some i => fun i' => if i' = i then upd (s.rowMajor.symm n) else r i'
        | none => r) x i
      = if s.rowMajor i ∈ l then upd i else x i := by
  induction l generalizing x with
  | nil => rfl
  | cons n l ih =>
    rw [List.foldl_cons, ih]
    simp only [h]
    by_cases hl : s.rowMajor i ∈ l
    · rw [if_pos hl, if_pos (List.mem_cons_of_mem _ hl)]
    · rw [if_neg hl]
      by_cases hi : i = s.rowMajor.symm n
      · have hn : s.rowMajor i = n := by rw [hi, Equiv.apply_symm_apply]
        rw [if_pos hi, if_pos (hn ▸ List.mem_cons_self), hi]
      · have hn : ¬ s.rowMajor i ∈ n :: l := fun hm => by
          rcases List.mem_cons.1 hm with e | e
          · exact hi (by rw [← e, Equiv.symm_apply_apply])
          · exact hl e
        rw [if_neg hi, if_neg hn]

/-- A scatter whose updates have the operand's shape, whose every update index `j` lands on `j`
    (`h`), and whose body returns the update's element (a `set`), returns the updates: the
    schedule visits every row-major position, so every element of the operand is replaced. -/
theorem Host.scatter_set_of_self (d : ScatterDims s si s) (x : s.Idx → α) (idx : IVec si w) (upd : s.Idx → α)
    (h : ∀ j, d.resultIdx? j idx = some j) : Host.scatter d (fun _ b => b) x idx upd = upd := by
  funext i
  have key := Host.scatter_visits_of_self d idx upd h i (List.finRange s.numel) x
  rw [if_pos (List.mem_finRange _)] at key
  exact key

end Idealize.ShloMosaic
-- ==== Proof.RefIsSpec.lean ====
/-
  The reference computes the specification.

  Read at an index (p, q), the reference's last stage is a sum of two stages: a scatter, and the bias
  broadcast along the rows. The scatter writes the matrix product into an array of zeros with an empty
  index tensor and the two window axes the array's own: every update index lands on itself, so the
  scatter's value is the product. The product at (p, q) is the sum over k < 256 of the left factor at
  (p, k) times the right factor at (k, q). The left factor is a sum over the middle axis of the first
  argument reshaped to [4096, 16, 256], whose entry (p, b, r) is the argument's entry (p, 256·b + r):
  the tile sum of row p at r. The right factor is a sum over the first axis of the transposed second
  argument reshaped to [16, 256, 4096], whose entry (b, r, q) is the transpose's entry (256·b + r, q),
  the argument's entry (q, 256·b + r): the tile sum of row q at r. Both sums start from the constant 0,
  which is the extended real 0, the unit of addition.
-/
import proofs.«154899_j4844723110442_2_alg».proof.Proof.RefReadPatched
import proofs.«154899_j4844723110442_2_alg».proof.Proof.TileSpec
import proofs.«154899_j4844723110442_2_alg».proof.Proof.LibScatterWhole

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.ReferenceIdeal.ReadP Cert.TileSpec

/-! ## The scatter: every update index lands on itself -/

/-- The scatter names no operand axis in its start-index map (the map is empty), so the window of
    every update index starts at 0 on both axes. -/
theorem scat_start {w : Nat} (j : S4096x4096.Idx) (idx : IVec S0 w) (a : Fin S4096x4096.rank) :
    scatter_S4096x4096_S0_S4096x4096_01_n_n_0.start j idx a = 0 :=
  dif_neg List.not_mem_nil

/-- No operand axis is inserted, and the update's axes 0 and 1 are the window axes in this order: the
    window coordinate of update index `j` on operand axis `a` is `j`'s own coordinate on `a`. -/
theorem scat_window (j : S4096x4096.Idx) (a : Fin S4096x4096.rank) :
    scatter_S4096x4096_S0_S4096x4096_01_n_n_0.window j a = (j a).val := by
  unfold ScatterDims.window
  match a with
  | ⟨0, _⟩ =>
    exact (dif_pos (show (0 : Fin S4096x4096.rank) ∈ scatter_S4096x4096_S0_S4096x4096_01_n_n_0.sKept by decide)).trans rfl
  | ⟨1, _⟩ =>
    exact (dif_pos (show (1 : Fin S4096x4096.rank) ∈ scatter_S4096x4096_S0_S4096x4096_01_n_n_0.sKept by decide)).trans rfl

/-- Start 0 plus the window coordinate `j a` is inside the operand on each axis (the updates have the
    operand's shape), and it is `j a`: update index `j` lands on `j`. -/
theorem scat_lands {w : Nat} (j : S4096x4096.Idx) (idx : IVec S0 w) :
    scatter_S4096x4096_S0_S4096x4096_01_n_n_0.resultIdx? j idx = some j := by
  have hs : ∀ a, scatter_S4096x4096_S0_S4096x4096_01_n_n_0.start j idx a
      + (scatter_S4096x4096_S0_S4096x4096_01_n_n_0.window j a : Int) = ((j a).val : Int) := fun a => by
    rw [scat_start, scat_window, zero_add]
  unfold ScatterDims.resultIdx?
  rw [dif_pos (fun a => by rw [hs a]; exact ⟨Int.natCast_nonneg _, Int.ofNat_lt.2 (j a).isLt⟩)]
  refine congrArg some (funext fun a => Fin.ext ?_)
  exact (congrArg Int.toNat (hs a)).trans (Int.toNat_natCast _)

/-- The scatter stage is the matrix product: it sets every element of the zeros to the product's. -/
theorem v7_eq (x0 x1 : (⟨S4096x4096, .f32⟩ : BufTy).Contents (Elt Ideal)) :
    val_main_v7 (F := Ideal) x0 x1 = val_main_v6 (F := Ideal) x0 x1 := by
  unfold val_main_v7
  exact Host.scatter_set_of_self _ _ _ _ (fun j => scat_lands j _)

/-! ## The two reshapes: which entry of an argument a tile entry is -/

/-- Entry (p, b, r) of the [4096, 16, 256] reshape of a [4096, 4096] array is at row-major position
    (16·p + b)·256 + r = 4096·p + (256·b + r): row p, column 256·b + r. -/
theorem idx_x (p : Fin 4096) (r : Fin 256) (b : Fin 16) :
    idx_main_v1 (idx_main_v2 (ix2 p r) b) = ix2 p (tcol b r) := by
  have hp := p.isLt; have hr := r.isLt; have hb := b.isLt
  funext a
  match a with
  | ⟨0, _⟩ =>
    refine Fin.ext ?_
    show ((p.val * 16 + b.val) * 256 + r.val) / 4096 = p.val
    omega
  | ⟨1, _⟩ =>
    refine Fin.ext ?_
    show ((p.val * 16 + b.val) * 256 + r.val) % 4096 = 256 * b.val + r.val
    omega

/-- Entry (b, r, q) of the [16, 256, 4096] reshape of a [4096, 4096] array is at row-major position
    (256·b + r)·4096 + q: row 256·b + r, column q; the transpose reads its argument at column and row
    exchanged: row q, column 256·b + r. -/
theorem idx_w (r : Fin 256) (q : Fin 4096) (b : Fin 16) :
    idx_main_v0 (idx_main_v3 (idx_main_v4 (ix2 r q) b)) = ix2 q (tcol b r) := by
  have hq := q.isLt; have hr := r.isLt; have hb := b.isLt
  funext a
  match a with
  | ⟨0, _⟩ =>
    refine Fin.ext ?_
    show ((b.val * 256 + r.val) * 4096 + q.val) % 4096 = q.val
    omega
  | ⟨1, _⟩ =>
    refine Fin.ext ?_
    show ((b.val * 256 + r.val) * 4096 + q.val) / 4096 = 256 * b.val + r.val
    omega

/-! ## The stages read at an index -/

/-- The left factor at (p, r): 0 plus the sum over the sixteen tiles b of the first argument at
    (p, 256·b + r), the tile sum of row p at r (0 is the unit of addition). -/
theorem v2_at (x0 : (⟨S4096x4096, .f32⟩ : BufTy).Contents (Elt Ideal)) (p : Fin 4096) (r : Fin 256) :
    val_main_v2 (F := Ideal) x0 (ix2 p r) = tileSumAt x0 p r := by
  refine (val_main_v2_apply x0 (ix2 p r)).trans ?_
  rw [val_main_cst_apply]
  show Ideal.ofBits .f32 0x00000000#32 + _ = _
  rw [Ideal.ofBits_zero_f32, zero_add]
  unfold tileSumAt
  refine Finset.sum_congr rfl fun b _ => ?_
  rw [val_main_v1_apply]
  exact congrArg x0 (idx_x p r b)

/-- The right factor at (r, q): 0 plus the sum over the sixteen tiles b of the second argument at
    (q, 256·b + r), the tile sum of row q at r. -/
theorem v4_at (x1 : (⟨S4096x4096, .f32⟩ : BufTy).Contents (Elt Ideal)) (r : Fin 256) (q : Fin 4096) :
    val_main_v4 (F := Ideal) x1 (ix2 r q) = tileSumAt x1 q r := by
  refine (val_main_v4_apply x1 (ix2 r q)).trans ?_
  rw [val_main_cst_0_apply]
  show Ideal.ofBits .f32 0x00000000#32 + _ = _
  rw [Ideal.ofBits_zero_f32, zero_add]
  unfold tileSumAt
  refine Finset.sum_congr rfl fun b _ => ?_
  rw [val_main_v3_apply, val_main_v0_apply]
  exact congrArg x1 (idx_w r q b)

/-- The product at (p, q): the sum over k < 256 of the left factor at (p, k) times the right at (k, q). -/
theorem v6_at (x0 x1 : (⟨S4096x4096, .f32⟩ : BufTy).Contents (Elt Ideal)) (p q : Fin 4096) :
    val_main_v6 (F := Ideal) x0 x1 (ix2 p q) = ∑ k : Fin 256, tileSumAt x0 p k * tileSumAt x1 q k := by
  refine (val_main_v6_apply x0 x1 (ix2 p q)).trans ?_
  refine Finset.sum_congr rfl fun k _ => ?_
  have el : lidx_main_v6 (ix2 p q) k = ix2 p k := funext fun a => match a with
    | ⟨0, _⟩ => rfl
    | ⟨1, _⟩ => rfl
  have er : ridx_main_v6 (ix2 p q) k = ix2 k q := funext fun a => match a with
    | ⟨0, _⟩ => rfl
    | ⟨1, _⟩ => rfl
  rw [el, er, v2_at, v4_at]

/-- The bias stage at (p, q): the two broadcasts read the third argument at q. -/
theorem v9_at (x2 : (⟨S4096, .f32⟩ : BufTy).Contents (Elt Ideal)) (p q : Fin 4096) :
    val_main_v9 (F := Ideal) x2 (ix2 p q) = x2 (ix1 q) := by
  rw [val_main_v9_apply, val_main_v8_apply]
  exact congrArg x2 (funext fun a => match a with | ⟨0, _⟩ => rfl)

/-- The reference's last stage, at the ideal instance, is the specification of its three arguments. -/
theorem ref_eq (x0 x1 : (⟨S4096x4096, .f32⟩ : BufTy).Contents (Elt Ideal)) (x2 : (⟨S4096, .f32⟩ : BufTy).Contents (Elt Ideal)) :
    Cert.ReferenceIdeal.ReadP.val_main_v10 (F := Ideal) x0 x1 x2 = Cert.TileSpec.out x0 x1 x2 := by
  funext i
  obtain ⟨p, q, rfl⟩ : ∃ (p q : Fin 4096), i = ix2 p q := ⟨i 0, i 1, eq_ix2 i⟩
  refine (val_main_v10_apply x0 x1 x2 (ix2 p q)).trans ?_
  show val_main_v7 (F := Ideal) x0 x1 (ix2 p q) + val_main_v9 (F := Ideal) x2 (ix2 p q) = outAt x0 x1 x2 p q
  rw [v7_eq, v6_at, v9_at]
  rfl

end Cert.ReferenceIdeal.RefValue

end
-- ==== Proof.KernelRun.lean ====
/-
  The kernel's run with its result named.

  @main is a first region, one host operation, a second region. The buffer contents at each boundary form a fold
  from the launch memory: the launch contents; after the first region (its output array rewritten, everything else
  kept); after the host operation; after the second region. Every weakly fair execution ends with every unscoped
  buffer at the last boundary's contents, so the result array ends at what the second region's write-backs leave
  and the three arguments at what they were launched with.
-/
import proofs.«154899_j4844723110442_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the argument arrays as launched. The launch over the three segments, the last thread state read
    against the final state at every unscoped buffer; the result array is one of them. -/
theorem run_result : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

/-- The last boundary's contents of the result array are what the second region's write-backs leave of it. -/
theorem result_arr (c : Dev nD) :
    W3 m ρ c (Proc.devRef .tc main_v2) = (dat1 (V2 m ρ) c).arrAt 3 cfg1.N :=
  W3_arr m ρ c 3

end Cert.KernelIdeal.KRun

end
-- ==== Proof.Boundary.lean ====
/-
  What the second region finds when it is entered.

  Between the launch and the second region stand the first region, which rewrites only its output array, and one
  host operation, which writes only the row form of the third argument. So the second region finds: the first
  argument as launched; the first region's output array as that region's write-backs left it; and the third
  argument, a vector of 4096 entries, as a [1, 4096] array with the same entries.
-/
import proofs.«154899_j4844723110442_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Boundary

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The first region finds the second argument as launched. -/
theorem entry0_arg1 (c : Dev nD) : V0 m ρ c main_arg1 = m ((c : Thread nD τ).loc main_arg1) := rfl

/-- The second region finds the first argument as launched: neither the first region nor the host operation writes it. -/
theorem entry1_arg0 (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The second region finds the first region's output array as that region left it: the host operation does not write it. -/
theorem entry1_v0 (c : Dev nD) : V2 m ρ c main_v0 = (dat0 (V0 m ρ) c).arrAt 1 cfg0.N :=
  (StableHlo.after_of_forall_not_mem (b := Proc.devRef .tc main_v0) _ _ (List.forall_iff_forall_mem.mp (by
      simp only [hostOps1, List.Forall, StableHlo.reshape_writes, Finset.mem_singleton]
      exact StableHlo.devRef_ne_of_ne (by decide)))).trans (W1_arr m ρ c 1)

/-- The second region finds, in the row array, the third argument recast from [4096] to [1, 4096]. -/
theorem entry1_v1 (c : Dev nD) :
    (V2 m ρ c main_v1 : (⟨S1x4096, .f32⟩ : BufTy).Contents (Elt F)) = shapeCast S1x4096 (m ((c : Thread nD τ).loc main_arg2)) shapeCasts_S4096_S1x4096 := by
  show StableHlo.after hostOps1 (W1 m ρ c) (Proc.devRef .tc main_v1) = _
  after_results
  rw [show W1 m ρ c (Proc.devRef .tc main_arg2) = m ((c : Thread nD τ).loc main_arg2) from W1_of_ne m ρ c main_arg2 (by decide)]
  rfl

/-- Entry (0, q) of that row array is entry q of the third argument: the two have the same row-major position. -/
theorem entry1_v1_apply (c : Dev nD) (q : Fin 4096) :
    V2 m ρ c main_v1 (ix2 (0 : Fin 1) q) = m ((c : Thread nD τ).loc main_arg2) (ix1 q) :=
  (congrFun (entry1_v1 m ρ c) (ix2 (0 : Fin 1) q)).trans
    (shapeCast_apply _ shapeCasts_S4096_S1x4096 (ix2 (0 : Fin 1) q) (ix1 q)
      (by rw [Shape.rowMajor_val_one, Shape.rowMajor_val_two]; show q.val = (0 : Nat) * 4096 + q.val; omega))

end Cert.KernelIdeal.Boundary

end
-- ==== Proof.WeightTiles.lean ====
/-
  The first region leaves the tile sums of its input array in its output array.

  The region's grid has eight points. At point t the input window holds rows 512·t … 512·t + 511 of the
  [4096, 4096] array, all 4096 columns; the output window holds rows 512·t … 512·t + 511 of the [4096, 256] array,
  all 256 columns. The body reads the sixteen [512, 256] column tiles of the input block (tile b is columns
  256·b … 256·b + 255), adds them entry by entry, left to right starting from tile 0, and stores the sum over the
  whole output block. So entry (p, r) of the output block is Σ_{b < 16} block[p, 256·b + r]: the tile sum of the
  array at row 512·t + p and tile column r. The eight blocks cover the rows of the output array, so the array ends
  at the tile sums everywhere. Only the associativity of addition on the extended reals is used (sixteen terms added
  left to right are their sum).
-/
import proofs.«154899_j4844723110442_2_alg».proof.Proof.Gen.KernelIdeal.Frame
import proofs.«154899_j4844723110442_2_alg».proof.Proof.TileSpec
import Idealize.ShloMosaic.Lib.Pipeline.Value

noncomputable section

namespace Cert.KernelIdeal.WeightTiles

open Cert.KernelIdeal Cert.KernelIdeal.Gen Idealize.ShloMosaic Idealize.ShloMosaic.TcCoe Idealize.SL.Sem
open Idealize.ShloMosaic.Pipeline (Dat)
open Idealize.ShloMosaic.ValueIdx
open Cert.TileSpec

/-! ## One entry of the body's result -/

/-- The offsets (0, 0) are zero on both axes. -/
theorem zero_offsets : (![0, 0] : Fin 2 → Nat) = fun _ => 0 := funext fun a => by fin_cases a <;> rfl

/-- The [512, 256] tile of a [512, 4096] block at column offset `o`: its entry (p, r) is the block's entry
    (p, o + r). (A unit-stride rectangle places coordinate j of an axis at offset + 1 · j.) -/
theorem tile_entry (x0 : Vec Ideal S512x4096 .f32) (o : Nat)
    (inb : ∀ a, (![0, o] : Fin 2 → Nat) a + S512x256.size a ≤ S512x4096.size a)
    (p : Fin 512) (r : Fin 256) (col : Fin 4096) (hcol : col.val = o + r.val) :
    View.ld x0 (Rect.unit (s := S512x4096) ![0, o] S512x256.size inb) (ix2 p r) = x0 (ix2 p col) := by
  show x0 _ = x0 _
  refine congrArg x0 (funext fun a => Fin.ext ?_)
  match a with
  | ⟨0, _⟩ => show 0 + 1 * p.val = p.val; omega
  | ⟨1, _⟩ => show o + 1 * r.val = col.val; omega

/-- Entry (p, r) of what the body stores, from the input block `x0`: the one store covers the whole output block,
    rounding to bf16 changes nothing on the extended reals, and the sixteen tiles' entries, added left to right from
    the first, are Σ_{b < 16} x0[p, 256·b + r]. -/
theorem body_entry (x0 : Vec Ideal S512x4096 .f32) (p : Fin 512) (r : Fin 256) :
    (out0_1 (F := Ideal) x0 (ix2 p r) : EReal) = ∑ b : Fin 16, (x0 (ix2 p (tcol b r)) : EReal) := by
  unfold out0_1
  rw [View.canon_unit_zero zero_offsets]
  unfold k0_pay1 k0_pay2
  refine Eq.trans ?_ (sum16 fun b => (x0 (ix2 p (tcol b r)) : EReal))
  have e0 : View.ld x0 r0_0 (ix2 p r) = x0 (ix2 p (tcol 0 r)) := tile_entry x0 0 _ p r (tcol 0 r) rfl
  have e1 : View.ld x0 r0_1 (ix2 p r) = x0 (ix2 p (tcol 1 r)) := tile_entry x0 256 _ p r (tcol 1 r) rfl
  have e2 : View.ld x0 r0_2 (ix2 p r) = x0 (ix2 p (tcol 2 r)) := tile_entry x0 512 _ p r (tcol 2 r) rfl
  have e3 : View.ld x0 r0_3 (ix2 p r) = x0 (ix2 p (tcol 3 r)) := tile_entry x0 768 _ p r (tcol 3 r) rfl
  have e4 : View.ld x0 r0_4 (ix2 p r) = x0 (ix2 p (tcol 4 r)) := tile_entry x0 1024 _ p r (tcol 4 r) rfl
  have e5 : View.ld x0 r0_5 (ix2 p r) = x0 (ix2 p (tcol 5 r)) := tile_entry x0 1280 _ p r (tcol 5 r) rfl
  have e6 : View.ld x0 r0_6 (ix2 p r) = x0 (ix2 p (tcol 6 r)) := tile_entry x0 1536 _ p r (tcol 6 r) rfl
  have e7 : View.ld x0 r0_7 (ix2 p r) = x0 (ix2 p (tcol 7 r)) := tile_entry x0 1792 _ p r (tcol 7 r) rfl
  have e8 : View.ld x0 r0_8 (ix2 p r) = x0 (ix2 p (tcol 8 r)) := tile_entry x0 2048 _ p r (tcol 8 r) rfl
  have e9 : View.ld x0 r0_9 (ix2 p r) = x0 (ix2 p (tcol 9 r)) := tile_entry x0 2304 _ p r (tcol 9 r) rfl
  have e10 : View.ld x0 r0_10 (ix2 p r) = x0 (ix2 p (tcol 10 r)) := tile_entry x0 2560 _ p r (tcol 10 r) rfl
  have e11 : View.ld x0 r0_11 (ix2 p r) = x0 (ix2 p (tcol 11 r)) := tile_entry x0 2816 _ p r (tcol 11 r) rfl
  have e12 : View.ld x0 r0_12 (ix2 p r) = x0 (ix2 p (tcol 12 r)) := tile_entry x0 3072 _ p r (tcol 12 r) rfl
  have e13 : View.ld x0 r0_13 (ix2 p r) = x0 (ix2 p (tcol 13 r)) := tile_entry x0 3328 _ p r (tcol 13 r) rfl
  have e14 : View.ld x0 r0_14 (ix2 p r) = x0 (ix2 p (tcol 14 r)) := tile_entry x0 3584 _ p r (tcol 14 r) rfl
  have e15 : View.ld x0 r0_15 (ix2 p r) = x0 (ix2 p (tcol 15 r)) := tile_entry x0 3840 _ p r (tcol 15 r) rfl
  show View.ld x0 r0_0 (ix2 p r) + View.ld x0 r0_1 (ix2 p r) + View.ld x0 r0_2 (ix2 p r) + View.ld x0 r0_3 (ix2 p r) + View.ld x0 r0_4 (ix2 p r) + View.ld x0 r0_5 (ix2 p r) + View.ld x0 r0_6 (ix2 p r) + View.ld x0 r0_7 (ix2 p r) + View.ld x0 r0_8 (ix2 p r) + View.ld x0 r0_9 (ix2 p r) + View.ld x0 r0_10 (ix2 p r) + View.ld x0 r0_11 (ix2 p r) + View.ld x0 r0_12 (ix2 p r) + View.ld x0 r0_13 (ix2 p r) + View.ld x0 r0_14 (ix2 p r) + View.ld x0 r0_15 (ix2 p r) = _
  rw [e0, e1, e2, e3, e4, e5, e6, e7, e8, e9, e10, e11, e12, e13, e14, e15]

/-! ## The blocks at a grid point -/

/-- The two windows' block indices over the eight grid points: both windows move together along the rows, neither
    moves along the columns, and the row block index is at most 7. -/
theorem block_indices : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 7 :=
  (by decide +kernel : ∀ t : Fin grid0.N, win0_0.index t (0 : Fin 2) = win0_1.index t (0 : Fin 2)
    ∧ win0_0.index t (1 : Fin 2) = 0 ∧ win0_1.index t (1 : Fin 2) = 0 ∧ win0_1.index t (0 : Fin 2) ≤ 7)

/-- Each of the eight row blocks of the output array is some point's. -/
theorem row_block_onto : ∀ q : Fin 8, ∃ t : Fin cfg0.N, win0_1.index t = ![q.val, 0] :=
  (by decide +kernel : ∀ q : Fin 8, ∃ t : Fin grid0.N, win0_1.index t = ![q.val, 0])

/-- What point `t` writes back is block `t` of the tile sums of the input array: entry (p, r) of the output block
    sits in the output array at row (block index)·512 + p, column r; the entries of the input block it is the sum of
    sit in the input array in the same row, at columns 256·b + r. -/
theorem flushed_eq (V : (c : Dev nD) → (b : Ref sig .tc) → Buf (Elt Ideal) ((c : Thread nD τ).loc b)) (c : Dev nD)
    (t : Fin cfg0.N) :
    (dat0 (F := Ideal) V c).flushed 1 t
      = ((cfg0.win 1).blk t).view.read (Elt Ideal) (tileSums (V c main_arg1)) := by
  show (cfg0.win 1).cut (grid0.coords t) ((dat0 (F := Ideal) V c).after 1 t) = _
  rw [after0_1]
  obtain ⟨e0, e1, e2, e3⟩ := block_indices t
  funext j
  obtain ⟨p, r, rfl⟩ : ∃ (p : Fin 512) (r : Fin 256), j = ix2 p r := ⟨j 0, j 1, eq_ix2 j⟩
  show out0_1 (F := Ideal) (iblk0 V c 0 t) (ix2 p r)
    = tileSums (V c main_arg1) (((cfg0.win 1).blk t).view.emb (ix2 p r))
  refine (body_entry (iblk0 V c 0 t) p r).trans ?_
  unfold tileSums tileSumAt
  refine Finset.sum_congr rfl fun b _ => ?_
  show V c main_arg1 (((cfg0.win 0).blk t).view.emb (ix2 p (tcol b r))) = V c main_arg1 _
  refine congrArg (V c main_arg1) (funext fun a => Fin.ext ?_)
  match a with
  | ⟨0, _⟩ =>
    show win0_0.index t (0 : Fin 2) * 512 + 1 * p.val = win0_1.index t (0 : Fin 2) * 512 + 1 * p.val
    omega
  | ⟨1, _⟩ =>
    show win0_0.index t (1 : Fin 2) * 4096 + 1 * (256 * b.val + r.val)
      = 256 * b.val + (win0_1.index t (1 : Fin 2) * 256 + 1 * r.val)
    omega

/-! ## The blocks cover the output array -/

/-- An index of the output array is in point `t`'s block iff each coordinate is in the block's range on its axis. -/
theorem mem_block (t : Fin cfg0.N) (i : S4096x256.Idx) :
    i ∈ ((cfg0.win 1).blk t).view.set ↔ ∀ a : Fin 2, win0_1.index t a * S512x256.size a ≤ (i a).val
      ∧ (i a).val < win0_1.index t a * S512x256.size a + S512x256.size a := by
  show i ∈ ((View.whole main_v0).slice (win0_1.rect t)).set ↔ _
  rw [View.set_slice_whole, Rect.mem_set_unit]
  exact Iff.rfl

/-- Row i₀ of the output array is in the block of the point whose row block index is i₀ / 512, and every point
    writes its block back. -/
theorem covered (i : S4096x256.Idx) :
    ∃ t : Fin cfg0.N, (cfg0.win 1).flush t = true ∧ i ∈ ((cfg0.win 1).blk t).view.set := by
  have hi0 : (i 0).val < 4096 := (i 0).isLt
  have hi1 : (i 1).val < 256 := (i 1).isLt
  obtain ⟨t, ht⟩ := row_block_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_block]
  intro a
  match a with
  | ⟨0, _⟩ =>
    show win0_1.index t (0 : Fin 2) * 512 ≤ (i 0).val ∧ (i 0).val < win0_1.index t (0 : Fin 2) * 512 + 512
    omega
  | ⟨1, _⟩ =>
    show win0_1.index t (1 : Fin 2) * 256 ≤ (i 1).val ∧ (i 1).val < win0_1.index t (1 : Fin 2) * 256 + 256
    omega

/-! ## The output array after the region -/

/-- Whatever the buffers hold when the first region is entered (`V`), its output array (window 1) ends at the tile
    sums of its input array (window 0, the second argument of @main). -/
theorem arr0 (V : (c : Dev nD) → (b : Ref sig .tc) → Buf (Elt Ideal) ((c : Thread nD τ).loc b)) (c : Dev nD) :
    (dat0 (F := Ideal) V c).arrAt 1 cfg0.N = Cert.TileSpec.tileSums (V c main_arg1) :=
  (dat0 (F := Ideal) V c).arrAt_eq_of_cover 1 _ (fun t _ => flushed_eq V c t) covered

end Cert.KernelIdeal.WeightTiles

end
-- ==== Proof.MatmulTiles.lean ====
/-
  The second region leaves, in its output array, the tile sums of its first input contracted against its second
  input, plus its third input's row.

  The grid has sixteen points. Point t works on rows 256·t … 256·t + 255: its first input block is those rows of the
  [4096, 4096] array a, its second and third inputs are the whole [4096, 256] array b and the whole [1, 4096] row r, and
  its output block is those rows of the result. Inside a block, the sixteen [256, 256] column tiles of the rows of a
  are added left to right, T[p, k] = Σ_{j < 16} a[p, 256·j + k]; the product contracts axis 1 of T with axis 1 of b
  from a zero start, so entry (p, q) is Σ_{k < 256} T[p, k] · b[q, k]; then r[0, q] is added. The sixteen row blocks
  tile the result, so the whole result is that function of a, b and r. Only associativity of + on the extended
  reals and 0 + x = x are used.
-/
import proofs.«154899_j4844723110442_2_alg».proof.Proof.Gen.KernelIdeal.Frame
import proofs.«154899_j4844723110442_2_alg».proof.Proof.TileSpec
import Idealize.ShloMosaic.Lib.Pipeline.Value
import Idealize.ShloMosaic.PureOps.Ideal.Laws

noncomputable section

namespace Cert.KernelIdeal.MatmulTiles

open Cert.KernelIdeal Cert.KernelIdeal.Gen Idealize.ShloMosaic Idealize.ShloMosaic.TcCoe Idealize.SL.Sem
open Idealize.ShloMosaic.Pipeline (Dat)
open Idealize.ShloMosaic.ValueIdx

/-! ## One block: entry (p, q) of what a point computes from its three input blocks -/

/-- The offset pair (0, 0) is zero on both axes. -/
theorem zero_offsets : (![0, 0] : Fin 2 → Nat) = fun _ => 0 := funext fun a => by fin_cases a <;> rfl

/-- Entry (p, r) of the [256, 256] tile of a [256, 4096] block that starts at column `o` is the block's entry
    (p, o + r): a tile's rows are the block's rows, its columns the block's columns shifted by `o`. -/
theorem ld_tile (x0 : Vec Ideal S256x4096 .f32) (o : Nat)
    (inb : ∀ a, (![0, o] : Fin 2 → Nat) a + S256x256.size a ≤ S256x4096.size a) (p r : Fin 256) (c : Fin 4096)
    (hc : c.val = o + r.val) :
    View.ld x0 (Rect.unit (s := S256x4096) ![0, o] S256x256.size inb) (ix2 p r) = x0 (ix2 p c) :=
  congrArg x0 (funext fun a => Fin.ext (by
    match a with
    | ⟨0, _⟩ => show 0 + 1 * p.val = p.val; omega
    | ⟨1, _⟩ => show o + 1 * r.val = c.val; omega))

/-- The sixteen tiles of a block, added left to right from the first, are at (p, k) the tile sum
    Σ_{j < 16} x[p, 256·j + k]  (tile j starts at column 256·j; sixteen terms added in order are their sum). -/
theorem tile_sum_at (x0 : Vec Ideal S256x4096 .f32) (p k : Fin 256) :
    addf (k1_pay2 (F := Ideal) (View.ld x0 r1_0) (View.ld x0 r1_1) (View.ld x0 r1_2) (View.ld x0 r1_3) (View.ld x0 r1_4) (View.ld x0 r1_5) (View.ld x0 r1_6) (View.ld x0 r1_7) (View.ld x0 r1_8) (View.ld x0 r1_9) (View.ld x0 r1_10) (View.ld x0 r1_11) (View.ld x0 r1_12) (View.ld x0 r1_13) (View.ld x0 r1_14)) (View.ld x0 r1_15) (ix2 p k)
      = ∑ b : Fin 16, x0 (ix2 p (Cert.TileSpec.tcol b k)) := by
  have e0 : View.ld x0 r1_0 (ix2 p k) = x0 (ix2 p (Cert.TileSpec.tcol 0 k)) :=
    ld_tile x0 0 inb_S256x4096_S256x256_0_0 p k (Cert.TileSpec.tcol 0 k) rfl
  have e1 : View.ld x0 r1_1 (ix2 p k) = x0 (ix2 p (Cert.TileSpec.tcol 1 k)) :=
    ld_tile x0 256 inb_S256x4096_S256x256_0_256 p k (Cert.TileSpec.tcol 1 k) rfl
  have e2 : View.ld x0 r1_2 (ix2 p k) = x0 (ix2 p (Cert.TileSpec.tcol 2 k)) :=
    ld_tile x0 512 inb_S256x4096_S256x256_0_512 p k (Cert.TileSpec.tcol 2 k) rfl
  have e3 : View.ld x0 r1_3 (ix2 p k) = x0 (ix2 p (Cert.TileSpec.tcol 3 k)) :=
    ld_tile x0 768 inb_S256x4096_S256x256_0_768 p k (Cert.TileSpec.tcol 3 k) rfl
  have e4 : View.ld x0 r1_4 (ix2 p k) = x0 (ix2 p (Cert.TileSpec.tcol 4 k)) :=
    ld_tile x0 1024 inb_S256x4096_S256x256_0_1024 p k (Cert.TileSpec.tcol 4 k) rfl
  have e5 : View.ld x0 r1_5 (ix2 p k) = x0 (ix2 p (Cert.TileSpec.tcol 5 k)) :=
    ld_tile x0 1280 inb_S256x4096_S256x256_0_1280 p k (Cert.TileSpec.tcol 5 k) rfl
  have e6 : View.ld x0 r1_6 (ix2 p k) = x0 (ix2 p (Cert.TileSpec.tcol 6 k)) :=
    ld_tile x0 1536 inb_S256x4096_S256x256_0_1536 p k (Cert.TileSpec.tcol 6 k) rfl
  have e7 : View.ld x0 r1_7 (ix2 p k) = x0 (ix2 p (Cert.TileSpec.tcol 7 k)) :=
    ld_tile x0 1792 inb_S256x4096_S256x256_0_1792 p k (Cert.TileSpec.tcol 7 k) rfl
  have e8 : View.ld x0 r1_8 (ix2 p k) = x0 (ix2 p (Cert.TileSpec.tcol 8 k)) :=
    ld_tile x0 2048 inb_S256x4096_S256x256_0_2048 p k (Cert.TileSpec.tcol 8 k) rfl
  have e9 : View.ld x0 r1_9 (ix2 p k) = x0 (ix2 p (Cert.TileSpec.tcol 9 k)) :=
    ld_tile x0 2304 inb_S256x4096_S256x256_0_2304 p k (Cert.TileSpec.tcol 9 k) rfl
  have e10 : View.ld x0 r1_10 (ix2 p k) = x0 (ix2 p (Cert.TileSpec.tcol 10 k)) :=
    ld_tile x0 2560 inb_S256x4096_S256x256_0_2560 p k (Cert.TileSpec.tcol 10 k) rfl
  have e11 : View.ld x0 r1_11 (ix2 p k) = x0 (ix2 p (Cert.TileSpec.tcol 11 k)) :=
    ld_tile x0 2816 inb_S256x4096_S256x256_0_2816 p k (Cert.TileSpec.tcol 11 k) rfl
  have e12 : View.ld x0 r1_12 (ix2 p k) = x0 (ix2 p (Cert.TileSpec.tcol 12 k)) :=
    ld_tile x0 3072 inb_S256x4096_S256x256_0_3072 p k (Cert.TileSpec.tcol 12 k) rfl
  have e13 : View.ld x0 r1_13 (ix2 p k) = x0 (ix2 p (Cert.TileSpec.tcol 13 k)) :=
    ld_tile x0 3328 inb_S256x4096_S256x256_0_3328 p k (Cert.TileSpec.tcol 13 k) rfl
  have e14 : View.ld x0 r1_14 (ix2 p k) = x0 (ix2 p (Cert.TileSpec.tcol 14 k)) :=
    ld_tile x0 3584 inb_S256x4096_S256x256_0_3584 p k (Cert.TileSpec.tcol 14 k) rfl
  have e15 : View.ld x0 r1_15 (ix2 p k) = x0 (ix2 p (Cert.TileSpec.tcol 15 k)) :=
    ld_tile x0 3840 inb_S256x4096_S256x256_0_3840 p k (Cert.TileSpec.tcol 15 k) rfl
  refine Eq.trans ?_ (Cert.TileSpec.sum16 fun b => x0 (ix2 p (Cert.TileSpec.tcol b k)))
  unfold k1_pay2
  show View.ld x0 r1_0 (ix2 p k) + View.ld x0 r1_1 (ix2 p k) + View.ld x0 r1_2 (ix2 p k) + View.ld x0 r1_3 (ix2 p k) + View.ld x0 r1_4 (ix2 p k) + View.ld x0 r1_5 (ix2 p k) + View.ld x0 r1_6 (ix2 p k) + View.ld x0 r1_7 (ix2 p k) + View.ld x0 r1_8 (ix2 p k) + View.ld x0 r1_9 (ix2 p k) + View.ld x0 r1_10 (ix2 p k) + View.ld x0 r1_11 (ix2 p k) + View.ld x0 r1_12 (ix2 p k) + View.ld x0 r1_13 (ix2 p k) + View.ld x0 r1_14 (ix2 p k) + View.ld x0 r1_15 (ix2 p k) = _
  rw [e0, e1, e2, e3, e4, e5, e6, e7, e8, e9, e10, e11, e12, e13, e14, e15]

/-! The product's operand indices at result index (p, q) and contraction position k: the left operand is read at
    (p, k), the right operand at (q, k) — both operands are contracted on their axis 1, and each one's axis 0 is free. -/

theorem lhs_free (p : Fin 256) (q : Fin 4096) (k : dot_S256x256_S4096x256_S256x4096_1_1_0_0_n_n.contr.Idx) :
    (dot_S256x256_S4096x256_S256x4096_1_1_0_0_n_n.lhsIdx (ix2 p q) k 0).val = p.val := by
  unfold DotDims.lhsIdx
  rw [dif_neg (show ¬(0 : Fin S256x256.rank) ∈ dot_S256x256_S4096x256_S256x4096_1_1_0_0_n_n.lhsBatch by decide), dif_pos (show (0 : Fin S256x256.rank) ∈ dot_S256x256_S4096x256_S256x4096_1_1_0_0_n_n.lhsNonContracting by decide)]
  rfl

theorem rhs_free (p : Fin 256) (q : Fin 4096) (k : dot_S256x256_S4096x256_S256x4096_1_1_0_0_n_n.contr.Idx) :
    (dot_S256x256_S4096x256_S256x4096_1_1_0_0_n_n.rhsIdx (ix2 p q) k 0).val = q.val := by
  unfold DotDims.rhsIdx
  rw [dif_neg (show ¬(0 : Fin S4096x256.rank) ∈ dot_S256x256_S4096x256_S256x4096_1_1_0_0_n_n.rhsBatch by decide), dif_pos (show (0 : Fin S4096x256.rank) ∈ dot_S256x256_S4096x256_S256x4096_1_1_0_0_n_n.rhsNonContracting by decide)]
  rfl

theorem lhs_contracted (p : Fin 256) (q : Fin 4096) (k : dot_S256x256_S4096x256_S256x4096_1_1_0_0_n_n.contr.Idx) :
    (dot_S256x256_S4096x256_S256x4096_1_1_0_0_n_n.lhsIdx (ix2 p q) k 1).val = (k ⟨0, by decide⟩).val :=
  dot_S256x256_S4096x256_S256x4096_1_1_0_0_n_n.lhsIdx_val_of_single rfl (ix2 p q) k

theorem rhs_contracted (p : Fin 256) (q : Fin 4096) (k : dot_S256x256_S4096x256_S256x4096_1_1_0_0_n_n.contr.Idx) :
    (dot_S256x256_S4096x256_S256x4096_1_1_0_0_n_n.rhsIdx (ix2 p q) k 1).val = (k ⟨0, by decide⟩).val :=
  dot_S256x256_S4096x256_S256x4096_1_1_0_0_n_n.rhsIdx_val_of_single rfl (ix2 p q) k

/-- The product into a zero start, at (p, q): Σ_{k < 256} l[p, k] · r[q, k]  (0 + x = x, and the one contracted axis
    of extent 256 is summed over Fin 256). -/
theorem matmul_at (l : FVec Ideal S256x256 .bf16) (r : FVec Ideal S4096x256 .bf16) (p : Fin 256) (q : Fin 4096) :
    matmul dot_S256x256_S4096x256_S256x4096_1_1_0_0_n_n none l r (constant (F := Ideal) S256x4096 .f32 0x00000000#32) (ix2 p q)
      = ∑ k : Fin 256, l (ix2 p k) * r (ix2 q k) := by
  refine (Ideal.matmul_constant_zero_apply dot_S256x256_S4096x256_S256x4096_1_1_0_0_n_n none l r (ix2 p q)).trans ?_
  rw [← Equiv.sum_comp (ValueIdx.contrEquiv1 dot_S256x256_S4096x256_S256x4096_1_1_0_0_n_n 256 rfl rfl).symm]
  refine Finset.sum_congr rfl fun k _ => ?_
  have hk := ValueIdx.contrEquiv1_symm_val dot_S256x256_S4096x256_S256x4096_1_1_0_0_n_n 256 rfl rfl k
  have el : dot_S256x256_S4096x256_S256x4096_1_1_0_0_n_n.lhsIdx (ix2 p q) ((ValueIdx.contrEquiv1 dot_S256x256_S4096x256_S256x4096_1_1_0_0_n_n 256 rfl rfl).symm k) = ix2 p k := funext fun a => Fin.ext (by
    match a with
    | ⟨0, _⟩ => exact lhs_free _ _ _
    | ⟨1, _⟩ => exact (lhs_contracted _ _ _).trans hk)
  have er : dot_S256x256_S4096x256_S256x4096_1_1_0_0_n_n.rhsIdx (ix2 p q) ((ValueIdx.contrEquiv1 dot_S256x256_S4096x256_S256x4096_1_1_0_0_n_n 256 rfl rfl).symm k) = ix2 q k := funext fun a => Fin.ext (by
    match a with
    | ⟨0, _⟩ => exact rhs_free _ _ _
    | ⟨1, _⟩ => exact (rhs_contracted _ _ _).trans hk)
  rw [el, er]

/-- What a point stores, at (p, q) of its [256, 4096] output block, from its input blocks x0 ([256, 4096]),
    x1 ([4096, 256]) and x2 ([1, 4096]):  Σ_k (Σ_j x0[p, 256·j + k]) · x1[q, k] + x2[0, q].
    The store covers the whole block; the change of float format and the two casts onto the same shape are the
    identity; the row x2 is repeated down the 256 rows. -/
theorem block_payload (x0 : Vec Ideal S256x4096 .f32) (x1 : Vec Ideal S4096x256 .bf16) (x2 : Vec Ideal S1x4096 .f32)
    (p : Fin 256) (q : Fin 4096) :
    out1_3 (F := Ideal) x0 x1 x2 (ix2 p q)
      = (∑ k : Fin 256, (∑ b : Fin 16, x0 (ix2 p (Cert.TileSpec.tcol b k))) * x1 (ix2 q k)) + x2 (ix2 (0 : Fin 1) q) := by
  unfold out1_3
  rw [View.canon_unit_zero zero_offsets]
  unfold k1_pay1
  show matmul dot_S256x256_S4096x256_S256x4096_1_1_0_0_n_n none _ _ (constant (F := Ideal) S256x4096 .f32 0x00000000#32) (ix2 p q)
      + broadcastTo S256x4096 (shapeCast S1x4096 (View.ld x2 r1_17) shapeCasts_S1x4096_S1x4096) broadcasts_S1x4096_S256x4096 (ix2 p q) = _
  refine congrArg₂ (· + ·) ?_ ?_
  · refine (matmul_at _ _ p q).trans ?_
    refine Finset.sum_congr rfl fun k _ => ?_
    refine congrArg₂ (· * ·) ?_ ?_
    · exact tile_sum_at x0 p k
    · exact congrFun ((shapeCast_self (View.ld x1 r1_16) shapeCasts_S4096x256_S4096x256).trans
        (View.ld_unit_zero (S := S4096x256) zero_offsets _ x1)) (ix2 q k)
  · refine (broadcastTo_apply (shapeCast S1x4096 (View.ld x2 r1_17) shapeCasts_S1x4096_S1x4096) broadcasts_S1x4096_S256x4096
      (ix2 p q) (ix2 (0 : Fin 1) q) (fun a => ?_)).trans ?_
    · match a with
      | ⟨0, _⟩ => show (0 : Nat) = if (1 : Nat) = 1 then 0 else p.val; rw [if_pos rfl]
      | ⟨1, _⟩ => show q.val = if (4096 : Nat) = 1 then 0 else q.val; rw [if_neg (by decide)]
    · exact congrFun ((shapeCast_self (View.ld x2 r1_17) shapeCasts_S1x4096_S1x4096).trans
        (View.ld_unit_zero (S := S1x4096) zero_offsets _ x2)) (ix2 (0 : Fin 1) q)

/-! ## From the sixteen row blocks to the array -/

/-- The array the region leaves, as one function of the arrays it finds: at (P, q),
    Σ_k T(a)[P, k] · b[q, k] + r[0, q]. -/
abbrev leaves (V : (c : Dev nD) → (b : Ref sig .tc) → Buf (Elt Ideal) ((c : Thread nD τ).loc b)) (c : Dev nD) :
    S4096x4096.Idx → EReal :=
  fun i => (∑ k : Fin 256, Cert.TileSpec.tileSumAt (V c main_arg0) (i 0) k * V c main_v0 (ix2 (i 1) k))
    + V c main_v1 (ix2 (0 : Fin 1) (i 1))

/-- Which block each window shows at a point, over the sixteen points: the first input's row block is the output's
    and its column block is 0; the second and third inputs always show their one block (0, 0); the output's column
    block is 0 and its row block is at most 15. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 15 :=
  (by decide +kernel : ∀ t : Fin grid1.N, _)

/-- Every row block of the output is some point's. -/
theorem blocks_onto : ∀ r : Fin 16, ∃ t : Fin cfg1.N, win1_3.index t (0 : Fin 2) = r.val ∧ win1_3.index t (1 : Fin 2) = 0 :=
  (by decide +kernel : ∀ r : Fin 16, ∃ t : Fin grid1.N, win1_3.index t (0 : Fin 2) = r.val ∧ win1_3.index t (1 : Fin 2) = 0)

section Blocks

variable (V : (c : Dev nD) → (b : Ref sig .tc) → Buf (Elt Ideal) ((c : Thread nD τ).loc b)) (c : Dev nD)

/-- The first input's block at a point, at (p, r), is a[P, r] where P = 256 · (the output's row block) + p: a block's
    coordinate in the array is its block index times the block size plus the coordinate inside the block. -/
theorem read_block0 (t : Fin cfg1.N) (p : Fin 256) (r P : Fin 4096)
    (hP : P.val = win1_3.index t (0 : Fin 2) * 256 + p.val) :
    (iblk1 V c 0 t : Vec Ideal S256x4096 .f32) (ix2 p r) = V c main_arg0 (ix2 P r) := by
  obtain ⟨e0, e1, -, -, -, -, -, -⟩ := index_facts t
  show V c main_arg0 (((cfg1.win 0).blk t).view.emb (ix2 p r)) = V c main_arg0 (ix2 P r)
  refine congrArg (V c main_arg0) (funext fun a => Fin.ext ?_)
  match a with
  | ⟨0, _⟩ => show win1_0.index t (0 : Fin 2) * 256 + 1 * p.val = P.val; omega
  | ⟨1, _⟩ => show win1_0.index t (1 : Fin 2) * 4096 + 1 * r.val = r.val; omega

/-- The second input's block is the whole array b at every point. -/
theorem read_block1 (t : Fin cfg1.N) (q : Fin 4096) (k : Fin 256) :
    (iblk1 V c 1 t : Vec Ideal S4096x256 .bf16) (ix2 q k) = V c main_v0 (ix2 q k) := by
  obtain ⟨-, -, e2, e3, -, -, -, -⟩ := index_facts t
  show V c main_v0 (((cfg1.win 1).blk t).view.emb (ix2 q k)) = V c main_v0 (ix2 q k)
  refine congrArg (V c main_v0) (funext fun a => Fin.ext ?_)
  match a with
  | ⟨0, _⟩ => show win1_1.index t (0 : Fin 2) * 4096 + 1 * q.val = q.val; omega
  | ⟨1, _⟩ => show win1_1.index t (1 : Fin 2) * 256 + 1 * k.val = k.val; omega

/-- The third input's block is the whole row r at every point. -/
theorem read_block2 (t : Fin cfg1.N) (q : Fin 4096) :
    (iblk1 V c 2 t : Vec Ideal S1x4096 .f32) (ix2 (0 : Fin 1) q) = V c main_v1 (ix2 (0 : Fin 1) q) := by
  obtain ⟨-, -, -, -, e4, e5, -, -⟩ := index_facts t
  show V c main_v1 (((cfg1.win 2).blk t).view.emb (ix2 (0 : Fin 1) q)) = V c main_v1 (ix2 (0 : Fin 1) q)
  refine congrArg (V c main_v1) (funext fun a => Fin.ext ?_)
  match a with
  | ⟨0, _⟩ => show win1_2.index t (0 : Fin 2) * 1 + 1 * 0 = 0; omega
  | ⟨1, _⟩ => show win1_2.index t (1 : Fin 2) * 4096 + 1 * q.val = q.val; omega

/-- What a point writes back is its row block of `leaves`: entry (p, q) of the block sits at (P, q) of the array,
    P = 256 · (row block) + p; the rows of a it reads are row P, and the tile columns 256·j + k are columns of the
    whole row since the first input's column block is 0. -/
theorem flushed_eq (t : Fin cfg1.N) :
    (dat1 (F := Ideal) V c).flushed 3 t = ((cfg1.win 3).blk t).view.read (Elt Ideal) (leaves V c) := by
  show (cfg1.win 3).cut (grid1.coords t) ((dat1 V c).after 3 t) = _
  rw [after1_3]
  obtain ⟨-, -, -, -, -, -, e6, e7⟩ := index_facts t
  funext j
  obtain ⟨p, q, rfl⟩ : ∃ (p : Fin 256) (q : Fin 4096), j = ix2 p q := ⟨j 0, j 1, eq_ix2 j⟩
  have hP : win1_3.index t (0 : Fin 2) * 256 + p.val < 4096 := by have := p.isLt; omega
  have hemb : ((cfg1.win 3).blk t).view.emb (ix2 p q)
      = ix2 (⟨win1_3.index t (0 : Fin 2) * 256 + p.val, hP⟩ : Fin 4096) q :=
    funext fun a => Fin.ext (by
      match a with
      | ⟨0, _⟩ => show win1_3.index t (0 : Fin 2) * 256 + 1 * p.val = win1_3.index t (0 : Fin 2) * 256 + p.val; omega
      | ⟨1, _⟩ => show win1_3.index t (1 : Fin 2) * 4096 + 1 * q.val = q.val; omega)
  show out1_3 (iblk1 V c 0 t) (iblk1 V c 1 t) (iblk1 V c 2 t) (ix2 p q)
    = leaves V c (((cfg1.win 3).blk t).view.emb (ix2 p q))
  rw [hemb]
  refine (block_payload (iblk1 V c 0 t) (iblk1 V c 1 t) (iblk1 V c 2 t) p q).trans ?_
  show _ = (∑ k : Fin 256, Cert.TileSpec.tileSumAt (V c main_arg0) (⟨win1_3.index t (0 : Fin 2) * 256 + p.val, hP⟩ : Fin 4096) k * V c main_v0 (ix2 q k))
    + V c main_v1 (ix2 (0 : Fin 1) q)
  refine congrArg₂ (· + ·) (Finset.sum_congr rfl fun k _ => congrArg₂ (· * ·) ?_ ?_) ?_
  · exact Finset.sum_congr rfl fun b _ => read_block0 V c t p (Cert.TileSpec.tcol b k) ⟨_, hP⟩ rfl
  · exact read_block1 V c t q k
  · exact read_block2 V c t q

/-- An index of the result is in a point's output block iff, on each axis, it lies in the block's range. -/
theorem mem_block (t : Fin cfg1.N) (i : S4096x4096.Idx) :
    i ∈ ((cfg1.win 3).blk t).view.set ↔ ∀ a : Fin 2, win1_3.index t a * S256x4096.size a ≤ (i a).val
      ∧ (i a).val < win1_3.index t a * S256x4096.size a + S256x4096.size a := by
  show i ∈ ((View.whole main_v2).slice (win1_3.rect t)).set ↔ _
  rw [View.set_slice_whole, Rect.mem_set_unit]
  exact Iff.rfl

/-- Every index of the result is written back by some point: row P lies in row block P / 256, and the one column
    block holds every column. -/
theorem cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  obtain ⟨t, ht0, ht1⟩ := blocks_onto ⟨(i 0).val / 256, by omega⟩
  have ht0' : win1_3.index t (0 : Fin 2) = (i 0).val / 256 := ht0
  refine ⟨t, flush1_3 t, ?_⟩
  rw [mem_block]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 4096 ≤ (i 1).val ∧ (i 1).val < win1_3.index t (1 : Fin 2) * 4096 + 4096; omega

end Blocks

/-- Whatever the buffers hold when the second region is entered (`V`), its output array (window 3) ends, at (p, q), at
    Σ_k T(a)[p, k] · b[q, k] + r[0, q], where `a` is window 0's array (the first argument of @main), `T` its tile sums,
    `b` window 1's array ([4096, 256]) and `r` window 2's ([1, 4096]). -/
theorem arr1 (V : (c : Dev nD) → (b : Ref sig .tc) → Buf (Elt Ideal) ((c : Thread nD τ).loc b)) (c : Dev nD) :
    (dat1 (F := Ideal) V c).arrAt 3 cfg1.N
      = fun i : S4096x4096.Idx => (∑ k : Fin 256, Cert.TileSpec.tileSumAt (V c main_arg0) (i 0) k * V c main_v0 (ix2 (i 1) k))
          + V c main_v1 (ix2 (0 : Fin 1) (i 1)) :=
  (dat1 (F := Ideal) V c).arrAt_eq_of_cover 3 (leaves V c) (fun t _ => flushed_eq V c t) (cover)

end Cert.KernelIdeal.MatmulTiles

end
-- ==== Proof.KernelValue.lean ====
/-
  The kernel computes the specification.

  The result array ends at what the second region's write-backs leave. That region contracts the tile sums of its
  first input against its second input and adds its third input's row; it finds the first argument as launched, the
  first region's output — the tile sums of the second argument — and the third argument as a row. Put together, the
  result at (p, q) is  Σ_k T(x)[p, k] · T(w)[q, k] + bias[q].
-/
import proofs.«154899_j4844723110442_2_alg».proof.Proof.KernelRun
import proofs.«154899_j4844723110442_2_alg».proof.Proof.Boundary
import proofs.«154899_j4844723110442_2_alg».proof.Proof.WeightTiles
import proofs.«154899_j4844723110442_2_alg».proof.Proof.MatmulTiles
import proofs.«154899_j4844723110442_2_alg».proof.Proof.TileSpec

noncomputable section

namespace Cert.KernelIdeal.KValue

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- The result array's last contents are the specification of the three arguments as launched. -/
theorem result_eq (c : Dev nD) :
    W3 m ρ c (Proc.devRef .tc main_v2)
      = Cert.TileSpec.out (m ((c : Thread nD τ).loc main_arg0)) (m ((c : Thread nD τ).loc main_arg1)) (m ((c : Thread nD τ).loc main_arg2)) := by
  rw [Cert.KernelIdeal.KRun.result_arr m ρ c, Cert.KernelIdeal.MatmulTiles.arr1 (V2 m ρ) c]
  funext i
  obtain ⟨p, q, rfl⟩ : ∃ (p q : Fin 4096), i = ix2 p q := ⟨i 0, i 1, eq_ix2 i⟩
  show (∑ k : Fin 256, Cert.TileSpec.tileSumAt (V2 m ρ c main_arg0) p k * V2 m ρ c main_v0 (ix2 q k))
      + V2 m ρ c main_v1 (ix2 (0 : Fin 1) q) = _
  rw [Cert.KernelIdeal.Boundary.entry1_arg0 m ρ c, Cert.KernelIdeal.Boundary.entry1_v1_apply m ρ c q,
    Cert.KernelIdeal.Boundary.entry1_v0 m ρ c, Cert.KernelIdeal.WeightTiles.arr0 (V0 m ρ) c]
  rfl

/-- Every weakly fair execution of the kernel terminates with the result array at the specification of the arguments
    and the arguments unchanged. -/
theorem run : θ_run defs (onTc (τ := τ) (main (F := Ideal))) ⟨m, fun _ => 0, ρ⟩ fun r => ∀ c : Dev nD,
      r.2.mem ((c.tc : Thread nD τ).loc main_v2)
        = Cert.TileSpec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (result_eq m ρ c), (h c).2⟩) (Cert.KernelIdeal.KRun.run_result m ρ)

end Cert.KernelIdeal.KValue

end
-- ==== Proof.lean ====
/-
  The kernel and its reference compute one function of their three arguments, over the extended reals.

  The kernel: a first region adds the sixteen 256-column tiles of each row of `weight` (left to right, starting from
  the first tile) into a [4096, 256] array; the host recasts `bias` as a row; a second region adds the sixteen tiles
  of each row of `x` the same way, contracts the result against the first region's array on the matrix unit from a
  zero accumulator, and adds the bias row. The reference: `x` recast to [4096, 16, 256] and summed over the middle
  axis from zero, the transpose of `weight` recast to [16, 256, 4096] and summed over the first axis from zero, their
  matrix product written over a zero array of the same shape (every entry is overwritten), plus the broadcast bias.

  Both are  out[p, q] = Σ_{k < 256} (Σ_{b < 16} x[p, 256·b + k]) · (Σ_{b < 16} weight[q, 256·b + k]) + bias[q]
  (Proof/TileSpec.lean). A change of float format is the identity on the extended reals, and the only law that joins
  the two spellings of a tile sum is that addition there is associative with unit 0, which holds at the infinities
  too: the precondition (finite inputs) is never opened. The idealized kernel is the kernel's own text read on the
  extended reals, no operation replaced, so `preserves` is `True`.

  The three frames: the two kernel programs' are the generated frame certificates; the reference has no kernel, and its
  frame is its run with the result dropped.
-/
import proofs.«154899_j4844723110442_2_alg».proof.Defs
import proofs.«154899_j4844723110442_2_alg».proof.Proof.Gen.Kernel
import proofs.«154899_j4844723110442_2_alg».proof.Proof.Gen.Kernel.Skeleton
import proofs.«154899_j4844723110442_2_alg».proof.Proof.Gen.Kernel.Launch
import proofs.«154899_j4844723110442_2_alg».proof.Proof.Gen.Kernel.Points
import proofs.«154899_j4844723110442_2_alg».proof.Proof.Gen.Kernel.Frame
import proofs.«154899_j4844723110442_2_alg».proof.Proof.Gen.KernelIdeal
import proofs.«154899_j4844723110442_2_alg».proof.Proof.Gen.KernelIdeal.Skeleton
import proofs.«154899_j4844723110442_2_alg».proof.Proof.Gen.KernelIdeal.Launch
import proofs.«154899_j4844723110442_2_alg».proof.Proof.Gen.KernelIdeal.Points
import proofs.«154899_j4844723110442_2_alg».proof.Proof.Gen.KernelIdeal.Frame
import proofs.«154899_j4844723110442_2_alg».proof.Proof.Gen.ReferenceIdeal
import proofs.«154899_j4844723110442_2_alg».proof.Proof.Gen.Pre_finite_inputs
import proofs.«154899_j4844723110442_2_alg».proof.Proof.RefRunPatched
import proofs.«154899_j4844723110442_2_alg».proof.Proof.RefReadPatched
import proofs.«154899_j4844723110442_2_alg».proof.Proof.RefIsSpec
import proofs.«154899_j4844723110442_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, with what it says of the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- No operation of the kernel was replaced in its idealized form. -/
theorem preserves : Cert.preserves_Kernel_KernelIdeal := trivial

/-- From memories that agree on the three arguments both programs end with the result array at the specification of
    those arguments: the kernel by its run read through both regions, the reference by its run read stage by stage. -/
theorem algebraic : Cert.algebraic_KernelIdeal_ReferenceIdeal := by
  intro m ρ m' ρ' _ hagree
  refine ⟨fun c => Cert.TileSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v10_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
